-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x512x768 : Shape := ⟨3, ![32, 512, 768]⟩
abbrev S32x2 : Shape := ⟨2, ![32, 2]⟩
abbrev S_ : Shape := ⟨0, ![]⟩

class Facts : Prop where
  bcast_S_S32x512x768 : S_.BroadcastsInDim S32x512x768 (![] : Fin 0 → Fin S32x512x768.rank)
  reducesTo_S32x512x768_S_d0_1_2 : S32x512x768.ReducesTo [0, 1, 2] S_
  h_S_ : 0 < S_.numel

variable [Facts]

def fn {F : FTy → Type} [FloatOps F] (main_arg0 : FVec F S32x512x768 .f32) (main_arg1 : IVec S32x2 32) : IVec S_ 1 :=
  let main_v0 : FVec F S32x512x768 .f32 := Host.absf main_arg0
  let main_cst : FVec F S_ .f32 := constant S_ .f32 0x7F800000#32
  let main_v1 : FVec F S32x512x768 .f32 := broadcastInDim S32x512x768 ![] bcast_S_S32x512x768 main_cst
  let main_v2 : IVec S32x512x768 1 := cmpf .olt main_v0 main_v1
  let main_c : IVec S_ 1 := constantI S_ 1 1#1
  let main_v3 : IVec S_ 1 := (fun x v => Host.reduce IntOp.andi x v reducesTo_S32x512x768_S_d0_1_2 h_S_) main_v2 main_c
  main_v3
-- ==== Kernel.lean ====
abbrev S32x512x768 : Shape := ⟨3, ![32, 512, 768]⟩
abbrev S32x2 : Shape := ⟨2, ![32, 2]⟩
abbrev S32x2x1 : Shape := ⟨3, ![32, 2, 1]⟩
abbrev S_ : Shape := ⟨0, ![]⟩
abbrev S1 : Shape := ⟨1, ![1]⟩
abbrev S1x1x1 : Shape := ⟨3, ![1, 1, 1]⟩
abbrev S32x2x768 : Shape := ⟨3, ![32, 2, 768]⟩
abbrev S32x2x512 : Shape := ⟨3, ![32, 2, 512]⟩
abbrev S32x512x4608 : Shape := ⟨3, ![32, 512, 4608]⟩
abbrev S1x256x768 : Shape := ⟨3, ![1, 256, 768]⟩
abbrev S1x2x256 : Shape := ⟨3, ![1, 2, 256]⟩
abbrev S1x256x4608 : Shape := ⟨3, ![1, 256, 4608]⟩
abbrev S256x768 : Shape := ⟨2, ![256, 768]⟩
abbrev S2x256 : Shape := ⟨2, ![2, 256]⟩
abbrev S1x256 : Shape := ⟨2, ![1, 256]⟩
abbrev S256 : Shape := ⟨1, ![256]⟩
abbrev S256x1 : Shape := ⟨2, ![256, 1]⟩

abbrev nBuf : Space → Nat
  | .hbm => 27
  | .vmem => 6
  | .smem => 0
  | _ => 0

abbrev bufTy : (tb : Table) → Fin (tcTables nBuf tb) → BufTy
  | .hbm, ⟨0, _⟩ => ⟨S32x512x768, .f32⟩
  | .hbm, ⟨1, _⟩ => ⟨S32x2, .i32⟩
  | .hbm, ⟨2, _⟩ => ⟨S32x2x1, .i32⟩
  | .hbm, ⟨3, _⟩ => ⟨S_, .i32⟩
  | .hbm, ⟨4, _⟩ => ⟨S32x2x1, .i32⟩
  | .hbm, ⟨5, _⟩ => ⟨S32x2x1, .i1⟩
  | .hbm, ⟨6, _⟩ => ⟨S_, .i32⟩
  | .hbm, ⟨7, _⟩ => ⟨S32x2x1, .i32⟩
  | .hbm, ⟨8, _⟩ => ⟨S32x2x1, .i32⟩
  | .hbm, ⟨9, _⟩ => ⟨S32x2x1, .i32⟩
  | .hbm, ⟨10, _⟩ => ⟨S1, .i32⟩
  | .hbm, ⟨11, _⟩ => ⟨S_, .i32⟩
  | .hbm, ⟨12, _⟩ => ⟨S32x2x1, .i32⟩
  | .hbm, ⟨13, _⟩ => ⟨S32x2x1, .i1⟩
  | .hbm, ⟨14, _⟩ => ⟨S1x1x1, .i32⟩
  | .hbm, ⟨15, _⟩ => ⟨S32x2x1, .i32⟩
  | .hbm, ⟨16, _⟩ => ⟨S32x2x1, .i1⟩
  | .hbm, ⟨17, _⟩ => ⟨S32x2x1, .i1⟩
  | .hbm, ⟨18, _⟩ => ⟨S_, .i1⟩
  | .hbm, ⟨19, _⟩ => ⟨S32x2, .i1⟩
  | .hbm, ⟨20, _⟩ => ⟨S32x2x768, .f32⟩
  | .hbm, ⟨21, _⟩ => ⟨S32x2x768, .i1⟩
  | .hbm, ⟨22, _⟩ => ⟨S_, .f32⟩
  | .hbm, ⟨23, _⟩ => ⟨S32x2x768, .f32⟩
  | .hbm, ⟨24, _⟩ => ⟨S32x2x768, .f32⟩
  | .hbm, ⟨25, _⟩ => ⟨S32x2x512, .f32⟩
  | .hbm, ⟨26, _⟩ => ⟨S32x512x4608, .f32⟩
  | .local _ .vmem, ⟨0, _⟩ => ⟨S1x256x768, .f32⟩
  | .local _ .vmem, ⟨1, _⟩ => ⟨S1x256x768, .f32⟩
  | .local _ .vmem, ⟨2, _⟩ => ⟨S1x2x256, .f32⟩
  | .local _ .vmem, ⟨3, _⟩ => ⟨S1x2x256, .f32⟩
  | .local _ .vmem, ⟨4, _⟩ => ⟨S1x256x4608, .f32⟩
  | .local _ .vmem, ⟨5, _⟩ => ⟨S1x256x4608, .f32⟩
  | _, _ => ⟨S32x512x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_c_1 : Ref sig .tc := ⟨.hbm, 10, rfl⟩
abbrev main_call0_c_2 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_c_3 : Ref sig .tc := ⟨.hbm, 18, rfl⟩
abbrev main_call0_v11 : Ref sig .tc := ⟨.hbm, 19, rfl⟩
abbrev main_call0_v12 : Ref sig .tc := ⟨.hbm, 20, rfl⟩
abbrev main_call0_v13 : Ref sig .tc := ⟨.hbm, 21, rfl⟩
abbrev main_call0_cst : Ref sig .tc := ⟨.hbm, 22, rfl⟩
abbrev main_call0_v14 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x4608 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  bcast_S32x2_S32x2x1_0_1 : S32x2.BroadcastsInDim S32x2x1 (![0, 1] : Fin 2 → Fin S32x2x1.rank)
  bcast_S_S32x2x1 : S_.BroadcastsInDim S32x2x1 (![] : Fin 0 → Fin S32x2x1.rank)
  bcast_S1_S1x1x1_2 : S1.BroadcastsInDim S1x1x1 (![2] : Fin 1 → Fin S1x1x1.rank)
  bcast_S1x1x1_S32x2x1_0_1_2 : S1x1x1.BroadcastsInDim S32x2x1 (![0, 1, 2] : Fin 3 → Fin S32x2x1.rank)
  reducesTo_S32x2x1_S32x2_d2 : S32x2x1.ReducesTo [2] S32x2
  h_S_ : 0 < S_.numel
  bcast_S32x2_S32x2x768_0_1 : S32x2.BroadcastsInDim S32x2x768 (![0, 1] : Fin 2 → Fin S32x2x768.rank)
  bcast_S_S32x2x768 : S_.BroadcastsInDim S32x2x768 (![] : Fin 0 → Fin S32x2x768.rank)
  inb_S1x256x768_S1x256x768_0_0_0 : ∀ a, (![0, 0, 0] : Fin 3 → Nat) a + S1x256x768.size a ≤ S1x256x768.size a
  h_S1x256x768 : 0 < S1x256x768.numel
  shapeCasts_S1x256x768_S256x768 : S1x256x768.ShapeCasts S256x768
  inb_S1x2x256_S1x2x256_0_0_0 : ∀ a, (![0, 0, 0] : Fin 3 → Nat) a + S1x2x256.size a ≤ S1x2x256.size a
  h_S1x2x256 : 0 < S1x2x256.numel
  shapeCasts_S1x2x256_S2x256 : S1x2x256.ShapeCasts S2x256
  slices_S2x256_o0_0_S1x256 : S2x256.Slices ![0, 0] S1x256
  shapeCasts_S1x256_S256 : S1x256.ShapeCasts S256
  slices_S2x256_o1_0_S1x256 : S2x256.Slices ![1, 0] S1x256
  shapeCasts_S256_S256x1 : S256.ShapeCasts S256x1
  broadcasts_S256x1_S256x768 : S256x1.Broadcasts S256x768
  inb_S1x256x4608_S1x256x768_0_0_0 : ∀ a, (![0, 0, 0] : Fin 3 → Nat) a + S1x256x768.size a ≤ S1x256x4608.size a
  shapeCasts_S256x768_S1x256x768 : S256x768.ShapeCasts S1x256x768
  inb_S1x256x4608_S1x256x768_0_0_768 : ∀ a, (![0, 0, 768] : Fin 3 → Nat) a + S1x256x768.size a ≤ S1x256x4608.size a
  inb_S1x256x4608_S1x256x768_0_0_1536 : ∀ a, (![0, 0, 1536] : Fin 3 → Nat) a + S1x256x768.size a ≤ S1x256x4608.size a
  inb_S1x256x4608_S1x256x768_0_0_2304 : ∀ a, (![0, 0, 2304] : Fin 3 → Nat) a + S1x256x768.size a ≤ S1x256x4608.size a
  inb_S1x256x4608_S1x256x768_0_0_3072 : ∀ a, (![0, 0, 3072] : Fin 3 → Nat) a + S1x256x768.size a ≤ S1x256x4608.size a
  inb_S1x256x4608_S1x256x768_0_0_3840 : ∀ a, (![0, 0, 3840] : Fin 3 → Nat) a + S1x256x768.size a ≤ S1x256x4608.size a
  gather_S32x512x768_S32x2x1_S32x2x768_2_1_0_0_1_2_11768_wf : GatherDims.WF S32x512x768 S32x2x1 S32x2x768 [2] [1] [0] [1] [0] 2 ![1, 1, 768]
  dot_S32x2x768_S32x512x768_S32x2x512_2_2_1_1_0_0_wf : DotDims.WF S32x2x768 S32x512x768 S32x2x512 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x768.size a ≤ S32x512x768.size a
  hwx0_0 : ∀ i : grid0.Coords, EltTy.bits .f32 = 32 ∨ (Rect.block (s := S32x512x768) S1x256x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2x256.size a ≤ S32x2x512.size a
  hwx0_1 : ∀ i : grid0.Coords, EltTy.bits .f32 = 32 ∨ (Rect.block (s := S32x2x512) S1x2x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x4608.size a ≤ S32x512x4608.size a
  hwx0_2 : ∀ i : grid0.Coords, EltTy.bits .f32 = 32 ∨ (Rect.block (s := S32x512x4608) S1x256x4608.size (cc0_transform_2 i) (hinb0_2 i)).WholeWords (EltTy.packing .f32)

variable [Facts₀]

def gather_S32x512x768_S32x2x1_S32x2x768_2_1_0_0_1_2_11768 : GatherDims S32x512x768 S32x2x1 S32x2x768 where
  offsetDims := [2]
  collapsedSliceDims := [1]
  operandBatchingDims := [0]
  startIndicesBatchingDims := [0]
  startIndexMap := [1]
  indexVectorDim := 2
  sliceSizes := ![1, 1, 768]
  wf := gather_S32x512x768_S32x2x1_S32x2x768_2_1_0_0_1_2_11768_wf
def dot_S32x2x768_S32x512x768_S32x2x512_2_2_1_1_0_0 : DotDims S32x2x768 S32x512x768 S32x2x512 where
  lhsContracting := [2]
  rhsContracting := [2]
  lhsNonContracting := [1]
  rhsNonContracting := [1]
  lhsBatch := [0]
  rhsBatch := [0]
  wf := dot_S32x2x768_S32x512x768_S32x2x512_2_2_1_1_0_0_wf

abbrev win0_0 : Pipeline.Window sig grid0 :=
  Pipeline.Window.ofSpec (Memref.whole main_arg0) S1x256x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x2x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x256x4608.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32x512x768 : Shape := ⟨3, ![32, 512, 768]⟩
abbrev S32x2 : Shape := ⟨2, ![32, 2]⟩
abbrev S32x2x1 : Shape := ⟨3, ![32, 2, 1]⟩
abbrev S_ : Shape := ⟨0, ![]⟩
abbrev S1 : Shape := ⟨1, ![1]⟩
abbrev S1x1x1 : Shape := ⟨3, ![1, 1, 1]⟩
abbrev S32x2x768 : Shape := ⟨3, ![32, 2, 768]⟩
abbrev S32x2x512 : Shape := ⟨3, ![32, 2, 512]⟩
abbrev S32x512x2304 : Shape := ⟨3, ![32, 512, 2304]⟩
abbrev S32x1x512 : Shape := ⟨3, ![32, 1, 512]⟩
abbrev S32x512 : Shape := ⟨2, ![32, 512]⟩
abbrev S32x512x1 : Shape := ⟨3, ![32, 512, 1]⟩
abbrev S32x512x4608 : Shape := ⟨3, ![32, 512, 4608]⟩

abbrev nBuf : Space → Nat
  | .hbm => 38
  | .vmem => 0
  | .smem => 0
  | _ => 0

abbrev bufTy : (tb : Table) → Fin (tcTables nBuf tb) → BufTy
  | .hbm, ⟨0, _⟩ => ⟨S32x512x768, .f32⟩
  | .hbm, ⟨1, _⟩ => ⟨S32x2, .i32⟩
  | .hbm, ⟨2, _⟩ => ⟨S32x2x1, .i32⟩
  | .hbm, ⟨3, _⟩ => ⟨S_, .i32⟩
  | .hbm, ⟨4, _⟩ => ⟨S32x2x1, .i32⟩
  | .hbm, ⟨5, _⟩ => ⟨S32x2x1, .i1⟩
  | .hbm, ⟨6, _⟩ => ⟨S_, .i32⟩
  | .hbm, ⟨7, _⟩ => ⟨S32x2x1, .i32⟩
  | .hbm, ⟨8, _⟩ => ⟨S32x2x1, .i32⟩
  | .hbm, ⟨9, _⟩ => ⟨S32x2x1, .i32⟩
  | .hbm, ⟨10, _⟩ => ⟨S1, .i32⟩
  | .hbm, ⟨11, _⟩ => ⟨S_, .i32⟩
  | .hbm, ⟨12, _⟩ => ⟨S32x2x1, .i32⟩
  | .hbm, ⟨13, _⟩ => ⟨S32x2x1, .i1⟩
  | .hbm, ⟨14, _⟩ => ⟨S1x1x1, .i32⟩
  | .hbm, ⟨15, _⟩ => ⟨S32x2x1, .i32⟩
  | .hbm, ⟨16, _⟩ => ⟨S32x2x1, .i1⟩
  | .hbm, ⟨17, _⟩ => ⟨S32x2x1, .i1⟩
  | .hbm, ⟨18, _⟩ => ⟨S_, .i1⟩
  | .hbm, ⟨19, _⟩ => ⟨S32x2, .i1⟩
  | .hbm, ⟨20, _⟩ => ⟨S32x2x768, .f32⟩
  | .hbm, ⟨21, _⟩ => ⟨S32x2x768, .i1⟩
  | .hbm, ⟨22, _⟩ => ⟨S_, .f32⟩
  | .hbm, ⟨23, _⟩ => ⟨S32x2x768, .f32⟩
  | .hbm, ⟨24, _⟩ => ⟨S32x2x768, .f32⟩
  | .hbm, ⟨25, _⟩ => ⟨S32x2x512, .f32⟩
  | .hbm, ⟨26, _⟩ => ⟨S32x512x2304, .f32⟩
  | .hbm, ⟨27, _⟩ => ⟨S32x1x512, .f32⟩
  | .hbm, ⟨28, _⟩ => ⟨S32x512, .f32⟩
  | .hbm, ⟨29, _⟩ => ⟨S32x512x1, .f32⟩
  | .hbm, ⟨30, _⟩ => ⟨S32x512x2304, .f32⟩
  | .hbm, ⟨31, _⟩ => ⟨S32x512x2304, .f32⟩
  | .hbm, ⟨32, _⟩ => ⟨S32x1x512, .f32⟩
  | .hbm, ⟨33, _⟩ => ⟨S32x512, .f32⟩
  | .hbm, ⟨34, _⟩ => ⟨S32x512x1, .f32⟩
  | .hbm, ⟨35, _⟩ => ⟨S32x512x2304, .f32⟩
  | .hbm, ⟨36, _⟩ => ⟨S32x512x2304, .f32⟩
  | .hbm, ⟨37, _⟩ => ⟨S32x512x4608, .f32⟩
  | _, _ => ⟨S32x512x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_c_1 : Ref sig .tc := ⟨.hbm, 10, rfl⟩
abbrev main_call0_c_2 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_c_3 : Ref sig .tc := ⟨.hbm, 18, rfl⟩
abbrev main_call0_v11 : Ref sig .tc := ⟨.hbm, 19, rfl⟩
abbrev main_call0_v12 : Ref sig .tc := ⟨.hbm, 20, rfl⟩
abbrev main_call0_v13 : Ref sig .tc := ⟨.hbm, 21, rfl⟩
abbrev main_call0_cst : Ref sig .tc := ⟨.hbm, 22, rfl⟩
abbrev main_call0_v14 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩

abbrev nD : Nat := 1
abbrev τ : Topo := Topo.v7x

variable {F : FTy → Type} [FloatOps F]

class Facts₀ : Prop where
  bcast_S32x2_S32x2x1_0_1 : S32x2.BroadcastsInDim S32x2x1 (![0, 1] : Fin 2 → Fin S32x2x1.rank)
  bcast_S_S32x2x1 : S_.BroadcastsInDim S32x2x1 (![] : Fin 0 → Fin S32x2x1.rank)
  bcast_S1_S1x1x1_2 : S1.BroadcastsInDim S1x1x1 (![2] : Fin 1 → Fin S1x1x1.rank)
  bcast_S1x1x1_S32x2x1_0_1_2 : S1x1x1.BroadcastsInDim S32x2x1 (![0, 1, 2] : Fin 3 → Fin S32x2x1.rank)
  reducesTo_S32x2x1_S32x2_d2 : S32x2x1.ReducesTo [2] S32x2
  h_S_ : 0 < S_.numel
  bcast_S32x2_S32x2x768_0_1 : S32x2.BroadcastsInDim S32x2x768 (![0, 1] : Fin 2 → Fin S32x2x768.rank)
  bcast_S_S32x2x768 : S_.BroadcastsInDim S32x2x768 (![] : Fin 0 → Fin S32x2x768.rank)
  concatenates_S32x512x768_S32x512x768_S32x512x768_S32x512x2304_d2 : Shape.Concatenates [S32x512x768, S32x512x768, S32x512x768] S32x512x2304 2
  slices_S32x2x512_S32x1x512_0_0_0 : S32x2x512.Slices ![0, 0, 0] S32x1x512
  shapeCasts_S32x1x512_S32x512 : S32x1x512.ShapeCasts S32x512
  bcast_S32x512_S32x512x1_0_1 : S32x512.BroadcastsInDim S32x512x1 (![0, 1] : Fin 2 → Fin S32x512x1.rank)
  bcast_S32x512x1_S32x512x2304_0_1_2 : S32x512x1.BroadcastsInDim S32x512x2304 (![0, 1, 2] : Fin 3 → Fin S32x512x2304.rank)
  slices_S32x2x512_S32x1x512_0_1_0 : S32x2x512.Slices ![0, 1, 0] S32x1x512
  concatenates_S32x512x2304_S32x512x2304_S32x512x4608_d2 : Shape.Concatenates [S32x512x2304, S32x512x2304] S32x512x4608 2
  gather_S32x512x768_S32x2x1_S32x2x768_2_1_0_0_1_2_11768_wf : GatherDims.WF S32x512x768 S32x2x1 S32x2x768 [2] [1] [0] [1] [0] 2 ![1, 1, 768]
  dot_S32x2x768_S32x512x768_S32x2x512_2_2_1_1_0_0_wf : DotDims.WF S32x2x768 S32x512x768 S32x2x512 [2] [2] [1] [1] [0] [0]

variable [Facts₀]

def gather_S32x512x768_S32x2x1_S32x2x768_2_1_0_0_1_2_11768 : GatherDims S32x512x768 S32x2x1 S32x2x768 where
  offsetDims := [2]
  collapsedSliceDims := [1]
  operandBatchingDims := [0]
  startIndicesBatchingDims := [0]
  startIndexMap := [1]
  indexVectorDim := 2
  sliceSizes := ![1, 1, 768]
  wf := gather_S32x512x768_S32x2x1_S32x2x768_2_1_0_0_1_2_11768_wf
def dot_S32x2x768_S32x512x768_S32x2x512_2_2_1_1_0_0 : DotDims S32x2x768 S32x512x768 S32x2x512 where
  lhsContracting := [2]
  rhsContracting := [2]
  lhsNonContracting := [1]
  rhsNonContracting := [1]
  lhsBatch := [0]
  rhsBatch := [0]
  wf := dot_S32x2x768_S32x512x768_S32x2x512_2_2_1_1_0_0_wf

class Facts : Prop extends Facts₀ where

variable [Facts]
-- ==== Proof.ScaledCopies.lean ====
/-
  The function both programs compute, stated once over two arrays.

  From a token array `x` of shape [32, 512, 768] and a score array `a` of shape [32, 2, 512] the result, of shape
  [32, 512, 4608], is six copies of `x` side by side along the last axis; the first three are scaled, row by row, by
  the first score of the row's batch and the last three by the second:

      out[b, l, j] = x[b, l, j mod 768] · a[b, j div 2304, l].

  The score array is a parameter here. Both programs compute it from the arguments by the same host operations
  (two rows of `x` picked per batch by the integer argument, then their inner products with every row of the batch),
  so it never has to be opened: the whole comparison is about how the six copies are laid out and scaled, and uses no
  law of the arithmetic beyond "the same product of the same two numbers".
-/
import Idealize.ShloMosaic.PureOps.Ideal
import Idealize.ShloMosaic.Lib.ValueIdx

noncomputable section

namespace Cert.ScaledCopies

open Idealize.ShloMosaic Idealize.ShloMosaic.ValueIdx

variable {F : FTy → Type} [FloatOps F]

/-- Lane `j` of the result copies lane `j mod 768` of the tokens. -/
def lane (j : Fin 4608) : Fin 768 := ⟨j.val % 768, Nat.mod_lt _ (by decide)⟩

/-- Lane `j` of the result is scaled by score row `j div 2304`: row 0 for the first three copies, row 1 for the last three. -/
def half (j : Fin 4608) : Fin 2 := ⟨j.val / 2304, by have := j.isLt; omega⟩

@[simp] theorem lane_val (j : Fin 4608) : (lane j).val = j.val % 768 := rfl
@[simp] theorem half_val (j : Fin 4608) : (half j).val = j.val / 2304 := rfl

/-- The result as one function of the tokens and the scores, entry by entry. -/
def scaledCopies (x : (⟨3, ![32, 512, 768]⟩ : Shape).Idx → F .f32) (a : (⟨3, ![32, 2, 512]⟩ : Shape).Idx → F .f32) :
    (⟨3, ![32, 512, 4608]⟩ : Shape).Idx → F .f32 :=
  fun i => FloatOps.mulf (x (ix3 (i 0 : Fin 32) (i 1 : Fin 512) (lane (i 2)))) (a (ix3 (i 0 : Fin 32) (half (i 2)) (i 1 : Fin 512)))

/-- The same rule on one block of 256 rows of one batch: the block of the result, of shape [1, 256, 4608], from the
    block of tokens [1, 256, 768] and the block of scores [1, 2, 256] (both score rows, the block's 256 columns). -/
def scaledCopiesBlock (x : (⟨3, ![1, 256, 768]⟩ : Shape).Idx → F .f32) (a : (⟨3, ![1, 2, 256]⟩ : Shape).Idx → F .f32) :
    (⟨3, ![1, 256, 4608]⟩ : Shape).Idx → F .f32 :=
  fun y => FloatOps.mulf (x (ix3 (0 : Fin 1) (y 1 : Fin 256) (lane (y 2)))) (a (ix3 (0 : Fin 1) (half (y 2)) (y 1 : Fin 256)))

end Cert.ScaledCopies

end
-- ==== Proof.RefValue.lean ====
/-
  The reference, read entry by entry, is the six scaled copies.

  The reference first lays three copies of the tokens side by side (lane `j` of that array, `j < 2304`, is lane
  `j mod 768` of the tokens), multiplies that array once by the first score row and once by the second — each score
  row reshaped to a column and repeated along the 2304 lanes —, and lays the two products side by side. Lane `j` of
  the result therefore comes from the first product when `j < 2304` and from the second, at lane `j - 2304`,
  otherwise; in both cases it is token lane `j mod 768` times score row `j div 2304` at the entry's row, since
  2304 = 3 · 768. The score array itself stays the closed stage the operations before it compute; it is not opened.
-/
import proofs.«120081_j72507637891613_1_alg».proof.Proof.Gen.ReferenceIdeal.Read
import proofs.«120081_j72507637891613_1_alg».proof.Proof.ScaledCopies
import Idealize.ShloMosaic.Lib.Pipeline.Value
import Idealize.ShloMosaic.Lib.ValueIdx

noncomputable section

namespace Cert.ReferenceIdeal.RefValue

open Cert.ReferenceIdeal Cert.ReferenceIdeal.Gen Cert.ReferenceIdeal.Read Idealize.ShloMosaic Idealize.ShloMosaic.ValueIdx
open Cert.ScaledCopies

variable {F : FTy → Type} [FloatOps F]

/-- Three copies of the tokens side by side: lane `j` of the joined array is lane `j mod 768` of the tokens. -/
theorem copies_apply (x0 : (⟨S32x512x768, .f32⟩ : BufTy).Contents (Elt F)) (b : Fin 32) (l : Fin 512) (j : Fin 2304) :
    val_main_v3 (F := F) x0 (ix3 b l j) = x0 (ix3 b l (⟨j.val % 768, Nat.mod_lt _ (by decide)⟩ : Fin 768)) := by
  unfold val_main_v3
  exact concatenate_replicate_apply (t := S32x512x2304) (s₁ := S32x512x768) 2 3 x0
    concatenates_S32x512x768_S32x512x768_S32x512x768_S32x512x2304_d2 rfl (ix3 b l j)
    (ix3 b l (⟨j.val % 768, Nat.mod_lt _ (by decide)⟩ : Fin 768)) rfl
    (fun d hd => match d with
      | ⟨0, _⟩ => rfl
      | ⟨1, _⟩ => rfl
      | ⟨2, _⟩ => absurd rfl hd)

/-- A score row as the reference spreads it over the 2304 lanes of a product: slice row `k` out of the scores, drop
    the unit axis, make it a column, repeat the column along the lanes. At `[b, l, j]` that is `scores[b, k, l]`. -/
theorem spread0_apply (x0 : (⟨S32x512x768, .f32⟩ : BufTy).Contents (Elt F)) (x1 : (⟨S32x2, .i32⟩ : BufTy).Contents (Elt F))
    (b : Fin 32) (l : Fin 512) (j : Fin 2304) :
    val_main_v7 (F := F) x0 x1 (ix3 b l j) = val_main_v2 (F := F) x0 x1 (ix3 b (0 : Fin 2) l) := by
  rw [val_main_v7_apply, val_main_v6_apply, val_main_v5_apply, val_main_v4_apply]
  refine congrArg (val_main_v2 (F := F) x0 x1) (funext fun d => Fin.ext ?_)
  match d with
  | ⟨0, _⟩ => show (b.val * 512 + l.val) / 512 = b.val; have := l.isLt; omega
  | ⟨1, _⟩ => rfl
  | ⟨2, _⟩ => show (b.val * 512 + l.val) % 512 = l.val; have := l.isLt; omega

theorem spread1_apply (x0 : (⟨S32x512x768, .f32⟩ : BufTy).Contents (Elt F)) (x1 : (⟨S32x2, .i32⟩ : BufTy).Contents (Elt F))
    (b : Fin 32) (l : Fin 512) (j : Fin 2304) :
    val_main_v12 (F := F) x0 x1 (ix3 b l j) = val_main_v2 (F := F) x0 x1 (ix3 b (1 : Fin 2) l) := by
  rw [val_main_v12_apply, val_main_v11_apply, val_main_v10_apply, val_main_v9_apply]
  refine congrArg (val_main_v2 (F := F) x0 x1) (funext fun d => Fin.ext ?_)
  match d with
  | ⟨0, _⟩ => show (b.val * 512 + l.val) / 512 = b.val; have := l.isLt; omega
  | ⟨1, _⟩ => rfl
  | ⟨2, _⟩ => show (b.val * 512 + l.val) % 512 = l.val; have := l.isLt; omega

/-- The reference's last stage is the six scaled copies of its first argument, the scores being its score stage. -/
theorem result_eq (x0 : (⟨S32x512x768, .f32⟩ : BufTy).Contents (Elt F)) (x1 : (⟨S32x2, .i32⟩ : BufTy).Contents (Elt F)) :
    val_main_v14 (F := F) x0 x1 = scaledCopies x0 (val_main_v2 (F := F) x0 x1) := by
  funext i
  obtain ⟨b, l, j, rfl⟩ : ∃ (b : Fin 32) (l : Fin 512) (j : Fin 4608), i = ix3 b l j := ⟨i 0, i 1, i 2, eq_ix3 i⟩
  unfold val_main_v14
  by_cases hj : j.val < 2304
  · -- a lane of the first product
    refine (concatenate_pair_apply_left (t := S32x512x4608) (s₁ := S32x512x2304) (s₂ := S32x512x2304) 2
      (val_main_v8 (F := F) x0 x1) (val_main_v13 (F := F) x0 x1)
      concatenates_S32x512x2304_S32x512x2304_S32x512x4608_d2 (ix3 b l j) rfl (ix3 b l (⟨j.val, hj⟩ : Fin 2304))
      (fun d => match d with | ⟨0, _⟩ => rfl | ⟨1, _⟩ => rfl | ⟨2, _⟩ => rfl)).trans ?_
    rw [val_main_v8_apply, copies_apply, spread0_apply]
    refine congrArg₂ FloatOps.mulf (congrArg x0 ?_) (congrArg (val_main_v2 (F := F) x0 x1) ?_)
    · funext d; apply Fin.ext
      match d with
      | ⟨0, _⟩ => rfl
      | ⟨1, _⟩ => rfl
      | ⟨2, _⟩ => rfl
    · funext d; apply Fin.ext
      match d with
      | ⟨0, _⟩ => rfl
      | ⟨1, _⟩ => show 0 = j.val / 2304; omega
      | ⟨2, _⟩ => rfl
  · -- a lane of the second product, 2304 lanes further on
    have hj' : j.val - 2304 < 2304 := by have := j.isLt; omega
    refine (concatenate_pair_apply_right (t := S32x512x4608) (s₁ := S32x512x2304) (s₂ := S32x512x2304) 2
      (val_main_v8 (F := F) x0 x1) (val_main_v13 (F := F) x0 x1)
      concatenates_S32x512x2304_S32x512x2304_S32x512x4608_d2 (ix3 b l j) rfl rfl (ix3 b l (⟨j.val - 2304, hj'⟩ : Fin 2304))
      (fun d hd => match d with | ⟨0, _⟩ => rfl | ⟨1, _⟩ => rfl | ⟨2, _⟩ => absurd rfl hd)
      (by show j.val - 2304 + 2304 = j.val; omega)).trans ?_
    rw [val_main_v13_apply, copies_apply, spread1_apply]
    refine congrArg₂ FloatOps.mulf (congrArg x0 ?_) (congrArg (val_main_v2 (F := F) x0 x1) ?_)
    · funext d; apply Fin.ext
      match d with
      | ⟨0, _⟩ => rfl
      | ⟨1, _⟩ => rfl
      | ⟨2, _⟩ => show (j.val - 2304) % 768 = j.val % 768; omega
    · funext d; apply Fin.ext
      match d with
      | ⟨0, _⟩ => rfl
      | ⟨1, _⟩ => show 1 = j.val / 2304; have := j.isLt; omega
      | ⟨2, _⟩ => rfl

end Cert.ReferenceIdeal.RefValue

end
-- ==== Proof.KernelBlock.lean ====
/-
  What the kernel body leaves in one output block, entry by entry.

  The body reads a block of 256 token rows, `x : [1, 256, 768]`, and the matching block of the two score rows,
  `a : [1, 2, 256]`. It forms two products of shape [256, 768]: the tokens times score row 0 turned into a column
  and repeated along the 768 lanes, and the same with score row 1. It stores the first product at lane offsets 0,
  768 and 1536 of the output block `[1, 256, 4608]` and the second at lane offsets 2304, 3072 and 3840. The six
  stores tile the block, each offset is a multiple of 768, and the first three lie below lane 2304, the last three at
  or above it: so every stored piece is a piece of ONE function of the block index,

      block[0, p, j] = x[0, p, j mod 768] · a[0, j div 2304, p],

  and the block the body leaves is that function.
-/
import proofs.«120081_j72507637891613_1_alg».proof.Proof.Gen.KernelIdeal.Frame
import proofs.«120081_j72507637891613_1_alg».proof.Proof.ScaledCopies
import Idealize.ShloMosaic.Lib.Pipeline.Value
import Idealize.ShloMosaic.Lib.ValueIdx

noncomputable section

namespace Cert.KernelIdeal.BlockValue

open Cert.KernelIdeal Cert.KernelIdeal.Gen Idealize.ShloMosaic Idealize.ShloMosaic.ValueIdx
open Cert.ScaledCopies

variable {F : FTy → Type} [FloatOps F]

theorem zero3 : (![0, 0, 0] : Fin 3 → Nat) = fun _ => 0 := funext fun a => by fin_cases a <;> rfl

/-- The first product: at row `p`, lane `q`, the token times score row 0 at column `p`. The score factor is read
    through the body's layout steps — the broadcast of a column along the lanes, the column as a vector, the vector
    as a one-row slice, the slice of the two rows, the two rows as the loaded block without its unit axis. -/
theorem product0_apply (v0 : Vec F S1x256x768 .f32) (v2 : Vec F S1x2x256 .f32) (p : Fin 256) (q : Fin 768) :
    k0_pay4 v0 v2 (ix2 p q) = FloatOps.mulf (v0 (ix3 (0 : Fin 1) p q)) (v2 (ix3 (0 : Fin 1) (0 : Fin 2) p)) := by
  unfold k0_pay4 k0_pay2 k0_pay3
  dsimp only
  refine congrArg₂ FloatOps.mulf ?_ ?_
  · exact shapeCast_apply v0 _ (ix2 p q) (ix3 (0 : Fin 1) p q)
      (by rewrite [Shape.rowMajor_val_three, Shape.rowMajor_val_two]
          show (0 * 256 + p.val) * 768 + q.val = p.val * 768 + q.val; omega)
  · refine (broadcastTo_apply _ _ (ix2 p q) (ix2 p (0 : Fin 1)) (fun a => match a with
      | ⟨0, _⟩ => by show p.val = if (256 : Nat) = 1 then 0 else p.val; rw [if_neg (by decide)]
      | ⟨1, _⟩ => by show 0 = if (1 : Nat) = 1 then 0 else q.val; rw [if_pos rfl])).trans ?_
    refine (shapeCast_apply _ _ (ix2 p (0 : Fin 1)) (ix1 p)
      (by rewrite [Shape.rowMajor_val_one, Shape.rowMajor_val_two]
          show p.val = p.val * 1 + 0; omega)).trans ?_
    refine (shapeCast_apply _ _ (ix1 p) (ix2 (0 : Fin 1) p)
      (by rewrite [Shape.rowMajor_val_two, Shape.rowMajor_val_one]
          show 0 * 256 + p.val = p.val; omega)).trans ?_
    refine (extractStridedSlice_apply _ _ _ (ix2 (0 : Fin 1) p) (ix2 (0 : Fin 2) p) (fun a => match a with
      | ⟨0, _⟩ => by show 0 = 0 + 0; rfl
      | ⟨1, _⟩ => by show p.val = 0 + p.val; omega)).trans ?_
    exact shapeCast_apply v2 _ (ix2 (0 : Fin 2) p) (ix3 (0 : Fin 1) (0 : Fin 2) p)
      (by rewrite [Shape.rowMajor_val_three, Shape.rowMajor_val_two]
          show (0 * 2 + 0) * 256 + p.val = 0 * 256 + p.val; omega)

/-- The second product: the same with score row 1 (the one-row slice starts at row 1). -/
theorem product1_apply (v0 : Vec F S1x256x768 .f32) (v2 : Vec F S1x2x256 .f32) (p : Fin 256) (q : Fin 768) :
    k0_pay5 v0 v2 (ix2 p q) = FloatOps.mulf (v0 (ix3 (0 : Fin 1) p q)) (v2 (ix3 (0 : Fin 1) (1 : Fin 2) p)) := by
  unfold k0_pay5 k0_pay2 k0_pay3
  dsimp only
  refine congrArg₂ FloatOps.mulf ?_ ?_
  · exact shapeCast_apply v0 _ (ix2 p q) (ix3 (0 : Fin 1) p q)
      (by rewrite [Shape.rowMajor_val_three, Shape.rowMajor_val_two]
          show (0 * 256 + p.val) * 768 + q.val = p.val * 768 + q.val; omega)
  · refine (broadcastTo_apply _ _ (ix2 p q) (ix2 p (0 : Fin 1)) (fun a => match a with
      | ⟨0, _⟩ => by show p.val = if (256 : Nat) = 1 then 0 else p.val; rw [if_neg (by decide)]
      | ⟨1, _⟩ => by show 0 = if (1 : Nat) = 1 then 0 else q.val; rw [if_pos rfl])).trans ?_
    refine (shapeCast_apply _ _ (ix2 p (0 : Fin 1)) (ix1 p)
      (by rewrite [Shape.rowMajor_val_one, Shape.rowMajor_val_two]
          show p.val = p.val * 1 + 0; omega)).trans ?_
    refine (shapeCast_apply _ _ (ix1 p) (ix2 (0 : Fin 1) p)
      (by rewrite [Shape.rowMajor_val_two, Shape.rowMajor_val_one]
          show 0 * 256 + p.val = p.val; omega)).trans ?_
    refine (extractStridedSlice_apply _ _ _ (ix2 (0 : Fin 1) p) (ix2 (1 : Fin 2) p) (fun a => match a with
      | ⟨0, _⟩ => by show 1 = 1 + 0; rfl
      | ⟨1, _⟩ => by show p.val = 0 + p.val; omega)).trans ?_
    exact shapeCast_apply v2 _ (ix2 (1 : Fin 2) p) (ix3 (0 : Fin 1) (1 : Fin 2) p)
      (by rewrite [Shape.rowMajor_val_three, Shape.rowMajor_val_two]
          show (0 * 2 + 1) * 256 + p.val = 1 * 256 + p.val; omega)

/-- One stored piece. A product `w` of the tokens with score row `k`, given its unit axis back and stored at lane
    offset `o`, is the block function under the piece whenever `o` is a multiple of 768 and the piece's 768 lanes
    all have `lane div 2304 = k`. -/
theorem piece_eq (x0 : Vec F S1x256x768 .f32) (x1 : Vec F S1x2x256 .f32) (o : Nat) (k : Fin 2)
    (inb : ∀ a, (![0, 0, o] : Fin 3 → Nat) a + S1x256x768.size a ≤ S1x256x4608.size a)
    (ho : o % 768 = 0) (hk : ∀ q : Nat, q < 768 → (o + q) / 2304 = k.val)
    (w : FVec F S256x768 .f32)
    (hw : ∀ (p : Fin 256) (q : Fin 768), w (ix2 p q) = FloatOps.mulf (x0 (ix3 (0 : Fin 1) p q)) (x1 (ix3 (0 : Fin 1) k p)))
    (hc : S256x768.ShapeCasts S1x256x768)
    (x : (Rect.unit (s := S1x256x4608) ![0, 0, o] S1x256x768.size inb).shape.Idx) :
    shapeCast S1x256x768 w hc x
      = scaledCopiesBlock x0 x1 ((Rect.unit (s := S1x256x4608) ![0, 0, o] S1x256x768.size inb).emb x) := by
  obtain ⟨r, p, q, rfl⟩ : ∃ (r : Fin 1) (p : Fin 256) (q : Fin 768), x = ix3 r p q := ⟨x 0, x 1, x 2, eq_ix3 x⟩
  refine (shapeCast_apply w hc (ix3 r p q) (ix2 p q)
    (by rewrite [Shape.rowMajor_val_two, Shape.rowMajor_val_three]
        show p.val * 768 + q.val = (r.val * 256 + p.val) * 768 + q.val; have := r.isLt; omega)).trans ?_
  rw [hw]
  refine congrArg₂ FloatOps.mulf (congrArg x0 ?_) (congrArg x1 ?_)
  · funext d; apply Fin.ext
    match d with
    | ⟨0, _⟩ => rfl
    | ⟨1, _⟩ => show p.val = 0 + 1 * p.val; omega
    | ⟨2, _⟩ => show q.val = (o + 1 * q.val) % 768; have := q.isLt; omega
  · funext d; apply Fin.ext
    match d with
    | ⟨0, _⟩ => rfl
    | ⟨1, _⟩ => show k.val = (o + 1 * q.val) / 2304; have := hk q.val q.isLt; rw [Nat.one_mul]; omega
    | ⟨2, _⟩ => show p.val = 0 + 1 * p.val; omega

/-- THE BLOCK THE BODY LEAVES is the block function of the two blocks it read. -/
theorem out_eq (x0 : Vec F S1x256x768 .f32) (x1 : Vec F S1x2x256 .f32) : out0_2 x0 x1 = scaledCopiesBlock x0 x1 := by
  funext y
  unfold out0_2
  simp only [View.ld_unit_zero (S := S1x256x768) zero3, View.ld_unit_zero (S := S1x2x256) zero3]
  refine View.canon_apply_of_pieces (scaledCopiesBlock x0 x1) _ ?_ y (cover0_2 _ _ _ _ _ _ y)
  intro pc hpc x
  simp only [List.mem_cons, List.not_mem_nil, or_false] at hpc
  rcases hpc with rfl | rfl | rfl | rfl | rfl | rfl
  · exact piece_eq x0 x1 3840 1 inb_S1x256x4608_S1x256x768_0_0_3840 (by decide) (fun q hq => by show (3840 + q) / 2304 = 1; omega) _ (product1_apply x0 x1) _ x
  · exact piece_eq x0 x1 3072 1 inb_S1x256x4608_S1x256x768_0_0_3072 (by decide) (fun q hq => by show (3072 + q) / 2304 = 1; omega) _ (product1_apply x0 x1) _ x
  · exact piece_eq x0 x1 2304 1 inb_S1x256x4608_S1x256x768_0_0_2304 (by decide) (fun q hq => by show (2304 + q) / 2304 = 1; omega) _ (product1_apply x0 x1) _ x
  · exact piece_eq x0 x1 1536 0 inb_S1x256x4608_S1x256x768_0_0_1536 (by decide) (fun q hq => by show (1536 + q) / 2304 = 0; omega) _ (product0_apply x0 x1) _ x
  · exact piece_eq x0 x1 768 0 inb_S1x256x4608_S1x256x768_0_0_768 (by decide) (fun q hq => by show (768 + q) / 2304 = 0; omega) _ (product0_apply x0 x1) _ x
  · exact piece_eq x0 x1 0 0 inb_S1x256x4608_S1x256x768_0_0_0 (by decide) (fun q hq => by show (0 + q) / 2304 = 0; omega) _ (product0_apply x0 x1) _ x

end Cert.KernelIdeal.BlockValue

end
-- ==== Proof.KernelArray.lean ====
/-
  From the blocks to the whole result array.

  The grid has 32 × 2 points; point (b, h) works on batch `b` and rows `256·h … 256·h + 255`. Its token block is
  block (b, h, 0) of the tokens, its score block is block (b, 0, h) of the scores — both score rows, columns
  `256·h …` — and it writes block (b, h, 0) of the result. So a token entry of the block at row `p` is the token
  array's entry at row `256·h + p`, a score entry at column `p` is the score array's entry at column `256·h + p`,
  and the block function of the two blocks is the array function

      out[b, l, j] = tokens[b, l, j mod 768] · scores[b, j div 2304, l]

  read through the written block. Every entry `[b, l, j]` of the result lies in the block of point (b, l div 256):
  the written blocks cover the array, which therefore ends holding that function of the tokens and of the score
  array the region finds on entry.
-/
import proofs.«120081_j72507637891613_1_alg».proof.Proof.Gen.KernelIdeal.Value
import proofs.«120081_j72507637891613_1_alg».proof.Proof.KernelBlock
import Idealize.ShloMosaic.Lib.Pipeline.Value
import Idealize.ShloMosaic.Lib.ValueIdx

noncomputable section

namespace Cert.KernelIdeal.ArrayValue

open Cert.KernelIdeal Cert.KernelIdeal.Gen Idealize.ShloMosaic Idealize.ShloMosaic.TcCoe Idealize.SL.Sem
open Idealize.ShloMosaic.ValueIdx Cert.ScaledCopies
open Idealize.ShloMosaic.Pipeline (Dat)

variable {F : FTy → Type} [FloatOps F]

/-- The block function of two blocks that are reads of two arrays — the token block at batch `B`, rows `256·H + ·`,
    the score block at batch `B`, columns `256·H + ·` — is the array function at the entry of batch `B`, row
    `256·H + ·` with the same lane. Stated over plain functions and index maps; the windows come in below. -/
theorem block_of_array (X : S32x512x768.Idx → F .f32) (A : S32x2x512.Idx → F .f32)
    (xb : S1x256x768.Idx → F .f32) (ab : S1x2x256.Idx → F .f32)
    (ex : S1x256x768.Idx → S32x512x768.Idx) (ea : S1x2x256.Idx → S32x2x512.Idx) (eo : S1x256x4608.Idx → S32x512x4608.Idx)
    (hx : ∀ j, xb j = X (ex j)) (ha : ∀ j, ab j = A (ea j)) (B H : Nat)
    (hex : ∀ j, ((ex j) 0).val = B ∧ ((ex j) 1).val = H * 256 + (j 1).val ∧ ((ex j) 2).val = (j 2).val)
    (hea : ∀ j, ((ea j) 0).val = B ∧ ((ea j) 1).val = (j 1).val ∧ ((ea j) 2).val = H * 256 + (j 2).val)
    (heo : ∀ y, ((eo y) 0).val = B ∧ ((eo y) 1).val = H * 256 + (y 1).val ∧ ((eo y) 2).val = (y 2).val)
    (y : S1x256x4608.Idx) : scaledCopiesBlock xb ab y = scaledCopies X A (eo y) := by
  unfold scaledCopiesBlock scaledCopies
  rw [hx, ha]
  obtain ⟨o0, o1, o2⟩ := heo y
  refine congrArg₂ FloatOps.mulf (congrArg X ?_) (congrArg A ?_)
  · obtain ⟨a0, a1, a2⟩ := hex (ix3 (0 : Fin 1) (y 1 : Fin 256) (lane (y 2)))
    funext d; apply Fin.ext
    match d with
    | ⟨0, _⟩ => exact a0.trans o0.symm
    | ⟨1, _⟩ => exact a1.trans o1.symm
    | ⟨2, _⟩ => exact a2.trans (congrArg (· % 768) o2.symm)
  · obtain ⟨a0, a1, a2⟩ := hea (ix3 (0 : Fin 1) (half (y 2)) (y 1 : Fin 256))
    funext d; apply Fin.ext
    match d with
    | ⟨0, _⟩ => exact a0.trans o0.symm
    | ⟨1, _⟩ => exact a1.trans (congrArg (· / 2304) o2.symm)
    | ⟨2, _⟩ => exact a2.trans o1.symm

variable (m : (ℓ : Loc nD τ sig) → Buf (Elt F) ℓ) (ρ : Dev nD → PrngReg)

/-- The three index maps, decided over the 64 points: tokens and result move together, (batch, row block, 0); the
    scores at (batch, 0, row block). -/
theorem block_indices : ∀ t : Fin cfg0.N,
    win0_0.index t (0 : Fin 3) = win0_2.index t (0 : Fin 3) ∧ win0_0.index t (1 : Fin 3) = win0_2.index t (1 : Fin 3)
    ∧ win0_0.index t (2 : Fin 3) = 0
    ∧ win0_1.index t (0 : Fin 3) = win0_2.index t (0 : Fin 3) ∧ win0_1.index t (1 : Fin 3) = 0
    ∧ win0_1.index t (2 : Fin 3) = win0_2.index t (1 : Fin 3)
    ∧ win0_2.index t (2 : Fin 3) = 0 :=
  (by decide +kernel : ∀ t : Fin grid0.N, _)

/-- Every (batch, row block) is some point's. -/
theorem block_onto : ∀ (q0 : Fin 32) (q1 : Fin 2), ∃ t : Fin cfg0.N, win0_2.index t = ![q0.val, q1.val, 0] :=
  (by decide +kernel : ∀ (q0 : Fin 32) (q1 : Fin 2), ∃ t : Fin grid0.N, win0_2.index t = ![q0.val, q1.val, 0])

/-- WHAT POINT `t` WRITES BACK is its block of the array function of the tokens and the scores as the region finds them. -/
theorem flushed_eq (c : Dev nD) (t : Fin cfg0.N) :
    (dats m 0 c).flushed 2 t
      = ((cfg0.win 2).blk t).view.read (Elt F) (scaledCopies (V m c main_arg0) (V m c main_v2)) := by
  rw [Cert.KernelIdeal.Value.flushed2, BlockValue.out_eq]
  obtain ⟨e0, e1, e2, e3, e4, e5, e6⟩ := block_indices t
  funext y
  show scaledCopiesBlock (iblk m c 0 t) (iblk m c 1 t) y
    = scaledCopies (V m c main_arg0) (V m c main_v2) (((cfg0.win 2).blk t).view.emb y)
  exact block_of_array (V m c main_arg0) (V m c main_v2) (iblk m c 0 t) (iblk m c 1 t)
    (((cfg0.win 0).blk t).view.emb) (((cfg0.win 1).blk t).view.emb) (((cfg0.win 2).blk t).view.emb)
    (fun j => rfl) (fun j => rfl) (win0_2.index t (0 : Fin 3)) (win0_2.index t (1 : Fin 3))
    (fun j => by
      have h0 : (j 0).val < 1 := (j 0).isLt
      refine ⟨?_, ?_, ?_⟩
      · show win0_0.index t (0 : Fin 3) * 1 + 1 * (j 0).val = win0_2.index t (0 : Fin 3); omega
      · show win0_0.index t (1 : Fin 3) * 256 + 1 * (j 1).val = win0_2.index t (1 : Fin 3) * 256 + (j 1).val; omega
      · show win0_0.index t (2 : Fin 3) * 768 + 1 * (j 2).val = (j 2).val; omega)
    (fun j => by
      have h0 : (j 0).val < 1 := (j 0).isLt
      refine ⟨?_, ?_, ?_⟩
      · show win0_1.index t (0 : Fin 3) * 1 + 1 * (j 0).val = win0_2.index t (0 : Fin 3); omega
      · show win0_1.index t (1 : Fin 3) * 2 + 1 * (j 1).val = (j 1).val; omega
      · show win0_1.index t (2 : Fin 3) * 256 + 1 * (j 2).val = win0_2.index t (1 : Fin 3) * 256 + (j 2).val; omega)
    (fun j => by
      have h0 : (j 0).val < 1 := (j 0).isLt
      refine ⟨?_, ?_, ?_⟩
      · show win0_2.index t (0 : Fin 3) * 1 + 1 * (j 0).val = win0_2.index t (0 : Fin 3); omega
      · show win0_2.index t (1 : Fin 3) * 256 + 1 * (j 1).val = win0_2.index t (1 : Fin 3) * 256 + (j 1).val; omega
      · show win0_2.index t (2 : Fin 3) * 4608 + 1 * (j 2).val = (j 2).val; omega)
    y

/-- An entry of the result is in point `t`'s block iff each coordinate is in the block's range on its axis. -/
theorem mem_blk (t : Fin cfg0.N) (i : S32x512x4608.Idx) :
    i ∈ ((cfg0.win 2).blk t).view.set ↔ ∀ a : Fin 3, win0_2.index t a * S1x256x4608.size a ≤ (i a).val
      ∧ (i a).val < win0_2.index t a * S1x256x4608.size a + S1x256x4608.size a := by
  show i ∈ ((View.whole main_v3).slice (win0_2.rect t)).set ↔ _
  rw [View.set_slice_whole, Rect.mem_set_unit]
  exact Iff.rfl

/-- The written blocks cover the result: entry `[b, l, j]` is in the block of the point of batch `b`, row block `l div 256`. -/
theorem covered (i : S32x512x4608.Idx) :
    ∃ t : Fin cfg0.N, (cfg0.win 2).flush t = true ∧ i ∈ ((cfg0.win 2).blk t).view.set := by
  have hi0 : (i 0).val < 32 := (i 0).isLt
  have hi1 : (i 1).val < 512 := (i 1).isLt
  have hi2 : (i 2).val < 4608 := (i 2).isLt
  obtain ⟨t, ht⟩ := block_onto ⟨(i 0).val, hi0⟩ ⟨(i 1).val / 256, by omega⟩
  have q0 : win0_2.index t (0 : Fin 3) = (i 0).val := congrFun ht 0
  have q1 : win0_2.index t (1 : Fin 3) = (i 1).val / 256 := congrFun ht 1
  have q2 : win0_2.index t (2 : Fin 3) = 0 := congrFun ht 2
  refine ⟨t, flush0_2 t, ?_⟩
  rw [mem_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 256 ≤ (i 1).val ∧ (i 1).val < win0_2.index t (1 : Fin 3) * 256 + 256; omega
  | ⟨2, _⟩ => show win0_2.index t (2 : Fin 3) * 4608 ≤ (i 2).val ∧ (i 2).val < win0_2.index t (2 : Fin 3) * 4608 + 4608; omega

/-- THE RESULT ARRAY after the run: the array function of the tokens and of the scores the region finds on entry. -/
theorem final (c : Dev nD) :
    (dats m 0 c).arrAt 2 cfg0.N = scaledCopies (V m c main_arg0) (V m c main_v2) :=
  (dats m 0 c).arrAt_eq_of_cover 2 (scaledCopies (V m c main_arg0) (V m c main_v2)) (fun t _ => flushed_eq m c t) covered

/-- The run, read: the result array at that function of the first argument and of the entry scores, the arguments unchanged. -/
theorem run : θ_run defs (onTc (τ := τ) (main (F := F))) ⟨m, fun _ => 0, ρ⟩ fun r => ∀ c : Dev nD,
      r.2.mem ((c : Thread nD τ).loc main_v3) = scaledCopies (m ((c : Thread nD τ).loc main_arg0)) (V m c main_v2)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans ((final m c).trans (by rw [V_main_arg0])), (h c).2⟩)
    (Cert.KernelIdeal.Value.run_blocks m ρ)

end Cert.KernelIdeal.ArrayValue

end
-- ==== Proof.EntryScores.lean ====
/-
  The scores the region finds on entry.

  Before the grid runs, the kernel's program computes the score array on the host: it gives the integer argument a
  trailing unit axis, picks two rows of the tokens per batch by it (an index below zero counts from the end; an index
  still out of range gives a row of NaN instead), and takes the inner product of each picked row with every row of
  its batch. The reference computes its score stage by the very same operations on the same two arguments. So the
  contents of the score buffer when the region is entered are, as a term, the reference's score stage of the
  arguments as launched: the host operations' results read back one after the other, the two terms then identical
  but for the names each program gives its shapes and dimension records.
-/
import proofs.«120081_j72507637891613_1_alg».proof.Proof.Gen.KernelIdeal.Frame
import proofs.«120081_j72507637891613_1_alg».proof.Proof.Gen.ReferenceIdeal.Read
import Idealize.ShloMosaic.Lib.StableHlo.Run

noncomputable section

namespace Cert.KernelIdeal.EntryScores

open Cert.KernelIdeal Cert.KernelIdeal.Gen Idealize.ShloMosaic Idealize.ShloMosaic.TcCoe Idealize.SL.Sem
open Idealize.ShloMosaic.StableHlo

variable {F : FTy → Type} [FloatOps F]
variable (m : (ℓ : Loc nD τ sig) → Buf (Elt F) ℓ)

set_option maxHeartbeats 1000000 in
/-- On entry to the region the score buffer holds the reference's score stage of the two arguments as launched. -/
theorem scores_entry (c : Dev nD) :
    (V m c main_v2 : S32x2x512.Idx → Elt F .f32)
      = Cert.ReferenceIdeal.Read.val_main_v2 (F := F) (m ((c : Thread nD τ).loc main_arg0)) (m ((c : Thread nD τ).loc main_arg1)) := by
  dsimp only [V]
  simp only [hostOps0, hostOps0_1, hostOps0_2, List.flatten_cons, List.flatten_nil, List.append_nil, List.cons_append,
    List.nil_append]
  after_results
  rfl

end Cert.KernelIdeal.EntryScores

end
-- ==== Proof.lean ====
/-
  The kernel and its reference compute the same array over the extended reals.

  Both programs take tokens `x : [32, 512, 768]` and an integer array `[32, 2]`, compute on the host a score array
  `a : [32, 2, 512]` (two picked rows of `x` per batch against every row of the batch) by the same operations, and
  return, of shape [32, 512, 4608],

      out[b, l, j] = x[b, l, j mod 768] · a[b, j div 2304, l]

  — six copies of the tokens side by side, the first three scaled by the first score row, the last three by the
  second (Proof/ScaledCopies.lean). The reference builds this from two concatenations and two broadcast products
  (Proof/RefValue.lean). The kernel builds it block by block: at each of 32 × 2 grid points the body forms the two
  products of a block of 256 rows and stores each three times at lane offsets that are multiples of 768
  (Proof/KernelBlock.lean), and the written blocks cover the result (Proof/KernelArray.lean); the score array its
  region reads is the reference's score stage of the arguments (Proof/EntryScores.lean). No law of the arithmetic is
  used: each entry is the same product of the same two numbers on both sides, so the finiteness of the inputs is
  never opened.

  The three frame claims: the two kernel programs by their generated frame certificates, the reference by its
  generated run with the result dropped. The idealization rewrote no operation, so nothing is left to preserve.
-/
import proofs.«120081_j72507637891613_1_alg».proof.Defs
import proofs.«120081_j72507637891613_1_alg».proof.Proof.Gen.Kernel
import proofs.«120081_j72507637891613_1_alg».proof.Proof.Gen.Kernel.Frame
import proofs.«120081_j72507637891613_1_alg».proof.Proof.Gen.KernelIdeal
import proofs.«120081_j72507637891613_1_alg».proof.Proof.Gen.KernelIdeal.Frame
import proofs.«120081_j72507637891613_1_alg».proof.Proof.Gen.KernelIdeal.Value
import proofs.«120081_j72507637891613_1_alg».proof.Proof.Gen.ReferenceIdeal
import proofs.«120081_j72507637891613_1_alg».proof.Proof.Gen.ReferenceIdeal.Run
import proofs.«120081_j72507637891613_1_alg».proof.Proof.Gen.ReferenceIdeal.Read
import proofs.«120081_j72507637891613_1_alg».proof.Proof.Gen.Pre_finite_inputs
import proofs.«120081_j72507637891613_1_alg».proof.Proof.ScaledCopies
import proofs.«120081_j72507637891613_1_alg».proof.Proof.RefValue
import proofs.«120081_j72507637891613_1_alg».proof.Proof.KernelBlock
import proofs.«120081_j72507637891613_1_alg».proof.Proof.KernelArray
import proofs.«120081_j72507637891613_1_alg».proof.Proof.EntryScores
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result array at the six scaled copies of the tokens, the scores being the reference's score
    stage of the arguments: the kernel's by its blocks and the scores its region finds, the reference's by its
    stages read entry by entry; the arguments agree. -/
theorem algebraic : Cert.algebraic_KernelIdeal_ReferenceIdeal := by
  intro m ρ m' ρ' _ hagree
  refine ⟨_, Cert.KernelIdeal.ArrayValue.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, Cert.ReferenceIdeal.RefValue.result_eq, (hagree c).1, (hagree c).2,
    Cert.KernelIdeal.EntryScores.scores_entry]

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
